-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel

variable [Facts]

def fn {F : FTy → Type} [FloatOps F] (main_arg0 : FVec F S16x2048x768 .f32) (main_arg1 : FVec F S16x2048x768 .f32) (main_arg2 : FVec F S16x2048x768 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S16x2048x768 .f32 := Host.absf main_arg1
  let main_cst_0 : FVec F S_ .f32 := constant S_ .f32 0x7F800000#32
  let main_v5 : FVec F S16x2048x768 .f32 := broadcastInDim S16x2048x768 ![] bcast_S_S16x2048x768 main_cst_0
  let main_v6 : IVec S16x2048x768 1 := cmpf .olt main_v4 main_v5
  let main_c_1 : IVec S_ 1 := constantI S_ 1 1#1
  let main_v7 : IVec S_ 1 := (fun x v => Host.reduce IntOp.andi x v reducesTo_S16x2048x768_S_d0_1_2 h_S_) main_v6 main_c_1
  let main_v8 : IVec S_ 1 := andi main_v3 main_v7
  let main_v9 : FVec F S16x2048x768 .f32 := Host.absf main_arg2
  let main_cst_2 : FVec F S_ .f32 := constant S_ .f32 0x7F800000#32
  let main_v10 : FVec F S16x2048x768 .f32 := broadcastInDim S16x2048x768 ![] bcast_S_S16x2048x768 main_cst_2
  let main_v11 : IVec S16x2048x768 1 := cmpf .olt main_v9 main_v10
  let main_c_3 : IVec S_ 1 := constantI S_ 1 1#1
  let main_v12 : IVec S_ 1 := (fun x v => Host.reduce IntOp.andi x v reducesTo_S16x2048x768_S_d0_1_2 h_S_) main_v11 main_c_3
  let main_v13 : IVec S_ 1 := andi main_v8 main_v12
  main_v13
-- ==== Kernel.lean ====
abbrev S16x2048x768 : Shape := ⟨3, ![16, 2048, 768]⟩
abbrev S1x128x768 : Shape := ⟨3, ![1, 128, 768]⟩
abbrev S1x2048x768 : Shape := ⟨3, ![1, 2048, 768]⟩
abbrev S128x768 : Shape := ⟨2, ![128, 768]⟩
abbrev S2048x768 : Shape := ⟨2, ![2048, 768]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S16x2048x768, .f32⟩
  | .hbm, ⟨3, _⟩ => ⟨S16x2048x768, .f32⟩
  | .local _ .vmem, ⟨0, _⟩ => ⟨S1x128x768, .f32⟩
  | .local _ .vmem, ⟨1, _⟩ => ⟨S1x128x768, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S1x128x768, .f32⟩
  | .local _ .vmem, ⟨7, _⟩ => ⟨S1x128x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S128x2048_S128 : S128x2048.Reduces [1] S128
  shapeCasts_S128_S128x1 : S128.ShapeCasts S128x1
  broadcasts_S128x1_S128x2048 : S128x1.Broadcasts S128x2048
  shapeCasts_S128x768_S1x128x768 : S128x768.ShapeCasts S1x128x768
  dot_S128x768_S2048x768_S128x2048_1_1_0_0_n_n_wf : DotDims.WF S128x768 S2048x768 S128x2048 [1] [1] [0] [0] [] []
  dot_S128x2048_S2048x768_S128x768_1_0_0_1_n_n_wf : DotDims.WF S128x2048 S2048x768 S128x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S16x2048x768.size a
  hwx0_0 : ∀ i : grid0.Coords, EltTy.bits .f32 = 32 ∨ (Rect.block (s := S16x2048x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S16x2048x768.size a
  hwx0_1 : ∀ i : grid0.Coords, EltTy.bits .f32 = 32 ∨ (Rect.block (s := S16x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x768.size a ≤ S16x2048x768.size a
  hwx0_2 : ∀ i : grid0.Coords, EltTy.bits .f32 = 32 ∨ (Rect.block (s := S16x2048x768) S1x2048x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x768.size a ≤ S16x2048x768.size a
  hwx0_3 : ∀ i : grid0.Coords, EltTy.bits .f32 = 32 ∨ (Rect.block (s := S16x2048x768) S1x128x768.size (cc0_transform_3 i) (hinb0_3 i)).WholeWords (EltTy.packing .f32)

variable [Facts₀]

def dot_S128x768_S2048x768_S128x2048_1_1_0_0_n_n : DotDims S128x768 S2048x768 S128x2048 where
  lhsContracting := [1]
  rhsContracting := [1]
  lhsNonContracting := [0]
  rhsNonContracting := [0]
  lhsBatch := []
  rhsBatch := []
  wf := dot_S128x768_S2048x768_S128x2048_1_1_0_0_n_n_wf
def dot_S128x2048_S2048x768_S128x768_1_0_0_1_n_n : DotDims S128x2048 S2048x768 S128x768 where
  lhsContracting := [1]
  rhsContracting := [0]
  lhsNonContracting := [0]
  rhsNonContracting := [1]
  lhsBatch := []
  rhsBatch := []
  wf := dot_S128x2048_S2048x768_S128x768_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x768 : Shape := ⟨3, ![16, 2048, 768]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S16x2048x768, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x768_S16x2048x768_S16x2048x2048_2_2_1_1_0_0_wf : DotDims.WF S16x2048x768 S16x2048x768 S16x2048x2048 [2] [2] [1] [1] [0] [0]
  dot_S16x2048x2048_S16x2048x768_S16x2048x768_2_1_1_2_0_0_wf : DotDims.WF S16x2048x2048 S16x2048x768 S16x2048x768 [2] [1] [1] [2] [0] [0]

variable [Facts₀]

def dot_S16x2048x768_S16x2048x768_S16x2048x2048_2_2_1_1_0_0 : DotDims S16x2048x768 S16x2048x768 S16x2048x2048 where
  lhsContracting := [2]
  rhsContracting := [2]
  lhsNonContracting := [1]
  rhsNonContracting := [1]
  lhsBatch := [0]
  rhsBatch := [0]
  wf := dot_S16x2048x768_S16x2048x768_S16x2048x2048_2_2_1_1_0_0_wf
def dot_S16x2048x2048_S16x2048x768_S16x2048x768_2_1_1_2_0_0 : DotDims S16x2048x2048 S16x2048x768 S16x2048x768 where
  lhsContracting := [2]
  rhsContracting := [1]
  lhsNonContracting := [1]
  rhsNonContracting := [2]
  lhsBatch := [0]
  rhsBatch := [0]
  wf := dot_S16x2048x2048_S16x2048x768_S16x2048x768_2_1_1_2_0_0_wf

class Facts : Prop extends Facts₀ where

variable [Facts]
-- ==== Proof.Attention.lean ====
/-
  Scaled dot-product attention with a row softmax, as one function on the extended reals.

  For one query row `q : Fin 768 → EReal` and the 2048 key rows `K k` and value rows `V k` of its batch:
    score k  = (∑ d, q d · K k d) · s            (s the common scale, the float nearest 768^(-1/2))
    rowMax   = max (-∞) (max over k of score k, folded from -∞)
    weight k = exp (score k − rowMax)
    denom    = ∑ k, weight k
    out d    = ∑ k, (weight k / denom) · V k d
  Every operation is the exact one on the extended reals; the float words for the scale and for -∞ are kept as
  words (both programs hold the same ones), so they are never evaluated. Nothing here needs the inputs finite:
  the two programs are compared operation by operation, and only the order and grouping of the sums and of the
  maximum differ, which commutativity and associativity of `+` and `max` on the extended reals absorb.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The scale both programs multiply the scores by: one float word, read at the ideal values. -/
def scale : EReal := Ideal.ofBits .f32 0x3D13CD3A#32

/-- The word both programs start the row maximum from (the pattern of -∞). -/
def negInf : EReal := Ideal.ofBits .f32 0xFF800000#32

section Row

variable (q : Fin 768 → EReal) (K V : Fin 2048 → Fin 768 → EReal)

/-- The scaled inner product of the query row with key row `k`. -/
def score (k : Fin 2048) : EReal := (∑ d : Fin 768, q d * K k d) * scale

/-- The row's maximum score, as both programs take it: a fold of `max` from -∞ over the keys, then once more
    against -∞. -/
def rowMax : EReal := max negInf ((Finset.univ : Finset (Fin 2048)).fold max negInf (score q K))

/-- The unnormalised softmax weight of key `k`. -/
def weight (k : Fin 2048) : EReal := Ideal.exp (score q K k - rowMax q K)

/-- The softmax denominator: the sum of the weights over the keys. -/
def denom : EReal := ∑ k : Fin 2048, weight q K k

/-- The attention output of this query row at feature `d`: the value rows averaged by the softmax weights. -/
def attnRow (d : Fin 768) : EReal := ∑ k : Fin 2048, Ideal.div (weight q K k) (denom q K) * V k d

end Row

/-- The whole result: entry (b, r, d) is the attention output of query row (b, r) against batch b's keys and values. -/
def attn (Q K V : (⟨3, ![16, 2048, 768]⟩ : Shape).Idx → EReal) : (⟨3, ![16, 2048, 768]⟩ : Shape).Idx → EReal :=
  fun i => attnRow (fun d => Q (ix3 (i 0) (i 1) d)) (fun k d => K (ix3 (i 0) k d)) (fun k d => V (ix3 (i 0) k d)) (i 2)

end Cert.Attention

end
-- ==== Proof.ReferenceAttention.lean ====
/-
  The reference computes `Attention.attn`.

  Its result is read one operation at a time at explicit coordinates (b, r, k) / (b, r, d): the first
  `dot_general` at (b, r, k) is the inner product of query row (b, r) with key row (b, k); times the scale it is
  the score; the reduce-max over the key axis is the fold of `max` from -∞ over k; the two broadcasts put the
  row's maximum and the row's denominator back at every k; the exponential, the sum from zero and the quotient are
  pointwise; the last `dot_general` at (b, r, d) sums the normalised weights against value rows (b, k) at d.
-/
import proofs.«101523_j39676907884055_1_alg».proof.Proof.Gen.ReferenceIdeal.Read
import proofs.«101523_j39676907884055_1_alg».proof.Proof.Attention

noncomputable section

namespace Cert.ReferenceIdeal.RefValue

open Cert.ReferenceIdeal Cert.ReferenceIdeal.Gen Cert.ReferenceIdeal.Read Cert.Attention
open Idealize.ShloMosaic Idealize.ShloMosaic.ValueIdx

variable (x0 x1 x2 : (⟨S16x2048x768, .f32⟩ : BufTy).Contents (Elt Ideal))

/-- Row `r` of batch `b` of an argument array, as a function of the feature. -/
abbrev rowOf (x : (⟨S16x2048x768, .f32⟩ : BufTy).Contents (Elt Ideal)) (b : Fin 16) (r : Fin 2048) : Fin 768 → EReal :=
  fun d => x (ix3 b r d)

/-- The rows of batch `b` of an argument array. -/
abbrev rowsOf (x : (⟨S16x2048x768, .f32⟩ : BufTy).Contents (Elt Ideal)) (b : Fin 16) : Fin 2048 → Fin 768 → EReal :=
  fun k d => x (ix3 b k d)

/-- The reduce over the key axis, as the shape relation the one-axis fold lemma names the inserted index by. -/
theorem keyAxis : S16x2048x2048.Reduces [2] S16x2048 := by decide

/-- The scaled product at (b, r, k) is the score of query row (b, r) against key row (b, k). -/
theorem score_eq (b : Fin 16) (r k : Fin 2048) :
    val_main_v2 (F := Ideal) x0 x1 (ix3 b r k) = score (rowOf x0 b r) (rowsOf x1 b) k := by
  rw [val_main_v2_apply, val_main_v0_apply, val_main_v1_apply, val_main_cst_apply]
  have el : ∀ d : Fin 768, lidx_main_v0 (ix3 b r k) d = ix3 b r d := fun d => funext fun a => Fin.ext (by
    match a with | ⟨0, _⟩ => rfl | ⟨1, _⟩ => rfl | ⟨2, _⟩ => rfl)
  have er : ∀ d : Fin 768, ridx_main_v0 (ix3 b r k) d = ix3 b k d := fun d => funext fun a => Fin.ext (by
    match a with | ⟨0, _⟩ => rfl | ⟨1, _⟩ => rfl | ⟨2, _⟩ => rfl)
  simp only [el, er]
  rfl

/-- A host reduce with a maximum body over the LAST axis of a [16, 2048, 2048] array, from the word of -∞, is at
    (b, r) the fold of `max` from -∞ over that row: the reduced index with coordinate `k` put back is (b, r, k). -/
theorem hostRowMax (x : FVec Ideal ⟨3, ![16, 2048, 2048]⟩ .f32)
    (h' : (⟨3, ![16, 2048, 2048]⟩ : Shape).ReducesTo [2] (⟨2, ![16, 2048]⟩ : Shape))
    (h : (⟨3, ![16, 2048, 2048]⟩ : Shape).Reduces [2] (⟨2, ![16, 2048]⟩ : Shape))
    (hu : 0 < (⟨0, ![]⟩ : Shape).numel) (b : Fin 16) (r : Fin 2048) :
    Host.reduce FloatOps.maximumf x (constant (⟨0, ![]⟩ : Shape) .f32 0xFF800000#32) h' hu (ix2 b r)
      = (Finset.univ : Finset (Fin 2048)).fold max negInf (fun k => x (ix3 b r k)) := by
  rw [Host.reduce_eq_fold_single FloatOps.maximumf x _ h' h hu]
  have hf : (x ∘ h.lift (ix2 b r)) = fun k : Fin 2048 => x (ix3 b r k) :=
    funext fun k => congrArg x (funext fun a => Fin.ext (by
      match a with | ⟨0, _⟩ => rfl | ⟨1, _⟩ => rfl | ⟨2, _⟩ => rfl))
  exact congrArg (fun f => Finset.fold max negInf f (Finset.univ : Finset (Fin 2048))) hf

/-- The reduce-max at (b, r) is the fold of `max` from -∞ over the row's scores. -/
theorem reduceMax_eq (b : Fin 16) (r : Fin 2048) :
    val_main_v3 (F := Ideal) x0 x1 (ix2 b r)
      = (Finset.univ : Finset (Fin 2048)).fold max negInf (score (rowOf x0 b r) (rowsOf x1 b)) := by
  unfold val_main_v3
  refine (hostRowMax (val_main_v2 (F := Ideal) x0 x1) reducesTo_S16x2048x2048_S16x2048_d2 keyAxis h_S_ b r).trans ?_
  exact congrArg (fun f => Finset.fold max negInf f (Finset.univ : Finset (Fin 2048)))
    (funext fun k => score_eq x0 x1 b r k)

/-- The row maximum at (b, r), after the second `max` against -∞. -/
theorem rowMax_eq (b : Fin 16) (r : Fin 2048) :
    val_main_v5 (F := Ideal) x0 x1 (ix2 b r) = rowMax (rowOf x0 b r) (rowsOf x1 b) := by
  rw [val_main_v5_apply, val_main_v4_apply, val_main_cst_1_apply, reduceMax_eq]
  rfl

/-- The exponential at (b, r, k) is the weight of key k in row (b, r). -/
theorem weight_eq (b : Fin 16) (r k : Fin 2048) :
    val_main_v9 (F := Ideal) x0 x1 (ix3 b r k) = weight (rowOf x0 b r) (rowsOf x1 b) k := by
  rw [val_main_v9_apply, val_main_v8_apply, val_main_v7_apply, val_main_v6_apply, score_eq,
    show idx_main_v6 (idx_main_v7 (ix3 b r k)) = ix2 b r from funext fun a => Fin.ext (by
      match a with | ⟨0, _⟩ => rfl | ⟨1, _⟩ => rfl), rowMax_eq]
  rfl

/-- The sum from zero at (b, r) is the row's denominator. -/
theorem denom_eq (b : Fin 16) (r : Fin 2048) :
    val_main_v10 (F := Ideal) x0 x1 (ix2 b r) = denom (rowOf x0 b r) (rowsOf x1 b) := by
  rw [val_main_v10_apply, val_main_cst_2_apply]
  have ei : ∀ k : Fin 2048, idx_main_v10 (ix2 b r) k = ix3 b r k := fun k => funext fun a => Fin.ext (by
    match a with | ⟨0, _⟩ => rfl | ⟨1, _⟩ => rfl | ⟨2, _⟩ => rfl)
  simp only [ei, weight_eq]
  show Ideal.ofBits .f32 0x00000000#32 + _ = _
  rw [Ideal.ofBits_zero_f32, zero_add]
  rfl

/-- The quotient at (b, r, k) is the normalised weight. -/
theorem prob_eq (b : Fin 16) (r k : Fin 2048) :
    val_main_v13 (F := Ideal) x0 x1 (ix3 b r k)
      = Ideal.div (weight (rowOf x0 b r) (rowsOf x1 b) k) (denom (rowOf x0 b r) (rowsOf x1 b)) := by
  rw [val_main_v13_apply, val_main_v12_apply, val_main_v11_apply, weight_eq,
    show idx_main_v11 (idx_main_v12 (ix3 b r k)) = ix2 b r from funext fun a => Fin.ext (by
      match a with | ⟨0, _⟩ => rfl | ⟨1, _⟩ => rfl), denom_eq]
  rfl

/-- The reference's result, as read by the generated stages, is `attn` of the three arguments. -/
theorem result_eq : val_main_v14 (F := Ideal) x0 x1 x2 = attn x0 x1 x2 := by
  funext i
  obtain ⟨b, r, d, rfl⟩ : ∃ (b : Fin 16) (r : Fin 2048) (d : Fin 768), i = ix3 b r d := ⟨i 0, i 1, i 2, eq_ix3 i⟩
  rw [val_main_v14_apply]
  have el : ∀ k : Fin 2048, lidx_main_v14 (ix3 b r d) k = ix3 b r k := fun k => funext fun a => Fin.ext (by
    match a with | ⟨0, _⟩ => rfl | ⟨1, _⟩ => rfl | ⟨2, _⟩ => rfl)
  have er : ∀ k : Fin 2048, ridx_main_v14 (ix3 b r d) k = ix3 b k d := fun k => funext fun a => Fin.ext (by
    match a with | ⟨0, _⟩ => rfl | ⟨1, _⟩ => rfl | ⟨2, _⟩ => rfl)
  simp only [el, er, prob_eq]
  rfl

end Cert.ReferenceIdeal.RefValue

end
-- ==== Proof.BlockAttention.lean ====
/-
  One grid point of the kernel computes `Attention.attnRow` for each of its 128 query rows.

  The body is read as named stages of its three loaded blocks — `q` [1,128,768], `k` and `v` [1,2048,768]:
  the blocks as matrices (the leading unit axis dropped; the change of float format is the identity on the
  extended reals), the scores (a matrix product into a zero accumulator, times the scale), the row maximum (a lane
  maximum from -∞, then `max` with -∞), the weights, the denominator (a lane sum from zero), the normalised weights
  and the product with the values. The body's stored value is their composition, definitionally; each stage is then
  read at explicit coordinates (r, k) / (r, d), and entry (0, r, d) of the stored block is `attnRow` of query row
  `r` of the block against the staged key and value rows, at `d`.
-/
import proofs.«101523_j39676907884055_1_alg».proof.Proof.Gen.KernelIdeal.Skeleton
import proofs.«101523_j39676907884055_1_alg».proof.Proof.Attention
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.Attention
open Idealize.ShloMosaic Idealize.ShloMosaic.ValueIdx

/-! ## Layout operations at coordinates -/

/-- Dropping the leading unit axis of a [1, n, m] block: entry (r, d) is the block's (0, r, d). -/
theorem dropLead_apply {α : Type} {n m : Nat} (v : (⟨3, ![1, n, m]⟩ : Shape).Idx → α)
    (h : (⟨3, ![1, n, m]⟩ : Shape).ShapeCasts ⟨2, ![n, m]⟩) (r : Fin n) (d : Fin m) :
    shapeCast ⟨2, ![n, m]⟩ v h (ix2 r d) = v (ix3 0 r d) := by
  refine (shapeCast_dropUnit_apply ![n, m] v h (ix2 r d)).trans (congrArg v ?_)
  funext a; apply Fin.ext
  match a with | ⟨0, _⟩ => rfl | ⟨1, _⟩ => rfl | ⟨2, _⟩ => rfl

/-- Adding a leading unit axis to an [n, m] matrix: entry (0, r, d) is the matrix's (r, d). -/
theorem addLead_apply {α : Type} {n m : Nat} (v : (⟨2, ![n, m]⟩ : Shape).Idx → α)
    (h : (⟨2, ![n, m]⟩ : Shape).ShapeCasts ⟨3, ![1, n, m]⟩) (r : Fin n) (d : Fin m) :
    shapeCast ⟨3, ![1, n, m]⟩ v h (ix3 0 r d) = v (ix2 r d) := by
  refine (shapeCast_addUnit_apply ![n, m] v h (ix3 0 r d)).trans (congrArg v ?_)
  funext a; apply Fin.ext
  match a with | ⟨0, _⟩ => rfl | ⟨1, _⟩ => rfl

/-- A per-row value [128], viewed as a column [128, 1] and broadcast along the 2048 lanes: entry (r, k) is the
    row's value. -/
theorem column_apply {α : Type} (v : (⟨1, ![128]⟩ : Shape).Idx → α)
    (h1 : (⟨1, ![128]⟩ : Shape).ShapeCasts ⟨2, ![128, 1]⟩)
    (h2 : (⟨2, ![128, 1]⟩ : Shape).Broadcasts ⟨2, ![128, 2048]⟩) (r : Fin 128) (k : Fin 2048) :
    broadcastTo ⟨2, ![128, 2048]⟩ (shapeCast ⟨2, ![128, 1]⟩ v h1) h2 (ix2 r k) = v (ix1 r) := by
  refine (broadcastTo_apply _ h2 (ix2 r k) (ix2 r (0 : Fin 1)) ?_).trans ?_
  · intro a
    match a with
    | ⟨0, _⟩ => show r.val = if (128 : Nat) = 1 then 0 else r.val; rw [if_neg (by decide)]
    | ⟨1, _⟩ => show 0 = if (1 : Nat) = 1 then 0 else k.val; rw [if_pos rfl]
  · refine shapeCast_apply v h1 (ix2 r (0 : Fin 1)) (ix1 r) ?_
    rw [Shape.rowMajor_val_one, Shape.rowMajor_val_two]
    show r.val = r.val * 1 + 0
    omega

/-- The exponential of a vector, at an index: the exponential of the entry. -/
theorem exp_apply {s : Shape} {φ : FTy} (v : FVec Ideal s φ) (i : s.Idx) : exp v i = Ideal.exp (v i) := rfl

/-! ## The two matrix products at coordinates -/

/-- Queries times keys: entry (r, k) of the product into a zero accumulator is the inner product over the 768
    features of query row `r` and key row `k` (both operands are contracted on their feature axis). -/
theorem scoreProduct_apply (a : FVec Ideal S128x768 .bf16) (b : FVec Ideal S2048x768 .bf16) (r : Fin 128) (k : Fin 2048) :
    matmul dot_S128x768_S2048x768_S128x2048_1_1_0_0_n_n none a b (constant S128x2048 .f32 0x00000000#32) (ix2 r k)
      = ∑ d : Fin 768, a (ix2 r d) * b (ix2 k d) := by
  simp only [matmul]
  rw [Ideal.matmul_constant_zero_apply, ← Equiv.sum_comp (contrEquiv1 dot_S128x768_S2048x768_S128x2048_1_1_0_0_n_n 768 rfl rfl).symm]
  refine Finset.sum_congr rfl fun d _ => ?_
  have hk := contrEquiv1_symm_val dot_S128x768_S2048x768_S128x2048_1_1_0_0_n_n 768 rfl rfl d
  have l0 : ∀ q : dot_S128x768_S2048x768_S128x2048_1_1_0_0_n_n.contr.Idx,
      (dot_S128x768_S2048x768_S128x2048_1_1_0_0_n_n.lhsIdx (ix2 r k) q 0).val = r.val := fun q => by
    unfold DotDims.lhsIdx
    rw [dif_neg (show ¬(0 : Fin S128x768.rank) ∈ dot_S128x768_S2048x768_S128x2048_1_1_0_0_n_n.lhsBatch by decide),
      dif_pos (show (0 : Fin S128x768.rank) ∈ dot_S128x768_S2048x768_S128x2048_1_1_0_0_n_n.lhsNonContracting by decide)]
    rfl
  have r0 : ∀ q : dot_S128x768_S2048x768_S128x2048_1_1_0_0_n_n.contr.Idx,
      (dot_S128x768_S2048x768_S128x2048_1_1_0_0_n_n.rhsIdx (ix2 r k) q 0).val = k.val := fun q => by
    unfold DotDims.rhsIdx
    rw [dif_neg (show ¬(0 : Fin S2048x768.rank) ∈ dot_S128x768_S2048x768_S128x2048_1_1_0_0_n_n.rhsBatch by decide),
      dif_pos (show (0 : Fin S2048x768.rank) ∈ dot_S128x768_S2048x768_S128x2048_1_1_0_0_n_n.rhsNonContracting by decide)]
    rfl
  have el : dot_S128x768_S2048x768_S128x2048_1_1_0_0_n_n.lhsIdx (ix2 r k)
      ((contrEquiv1 dot_S128x768_S2048x768_S128x2048_1_1_0_0_n_n 768 rfl rfl).symm d) = ix2 r d := funext fun c => Fin.ext (by
    match c with
    | ⟨0, _⟩ => exact l0 _
    | ⟨1, _⟩ => exact (dot_S128x768_S2048x768_S128x2048_1_1_0_0_n_n.lhsIdx_val_of_single rfl _ _).trans hk)
  have er : dot_S128x768_S2048x768_S128x2048_1_1_0_0_n_n.rhsIdx (ix2 r k)
      ((contrEquiv1 dot_S128x768_S2048x768_S128x2048_1_1_0_0_n_n 768 rfl rfl).symm d) = ix2 k d := funext fun c => Fin.ext (by
    match c with
    | ⟨0, _⟩ => exact r0 _
    | ⟨1, _⟩ => exact (dot_S128x768_S2048x768_S128x2048_1_1_0_0_n_n.rhsIdx_val_of_single rfl _ _).trans hk)
  rw [el, er]

/-- Weights times values: entry (r, d) of the product into a zero accumulator sums, over the 2048 keys, the
    weight of key `k` in row `r` against value row `k` at feature `d`. -/
theorem valueProduct_apply (a : FVec Ideal S128x2048 .bf16) (b : FVec Ideal S2048x768 .bf16) (r : Fin 128) (d : Fin 768) :
    matmul dot_S128x2048_S2048x768_S128x768_1_0_0_1_n_n none a b (constant S128x768 .f32 0x00000000#32) (ix2 r d)
      = ∑ k : Fin 2048, a (ix2 r k) * b (ix2 k d) := by
  simp only [matmul]
  rw [Ideal.matmul_constant_zero_apply, ← Equiv.sum_comp (contrEquiv1 dot_S128x2048_S2048x768_S128x768_1_0_0_1_n_n 2048 rfl rfl).symm]
  refine Finset.sum_congr rfl fun k _ => ?_
  have hk := contrEquiv1_symm_val dot_S128x2048_S2048x768_S128x768_1_0_0_1_n_n 2048 rfl rfl k
  have l0 : ∀ q : dot_S128x2048_S2048x768_S128x768_1_0_0_1_n_n.contr.Idx,
      (dot_S128x2048_S2048x768_S128x768_1_0_0_1_n_n.lhsIdx (ix2 r d) q 0).val = r.val := fun q => by
    unfold DotDims.lhsIdx
    rw [dif_neg (show ¬(0 : Fin S128x2048.rank) ∈ dot_S128x2048_S2048x768_S128x768_1_0_0_1_n_n.lhsBatch by decide),
      dif_pos (show (0 : Fin S128x2048.rank) ∈ dot_S128x2048_S2048x768_S128x768_1_0_0_1_n_n.lhsNonContracting by decide)]
    rfl
  have r1 : ∀ q : dot_S128x2048_S2048x768_S128x768_1_0_0_1_n_n.contr.Idx,
      (dot_S128x2048_S2048x768_S128x768_1_0_0_1_n_n.rhsIdx (ix2 r d) q 1).val = d.val := fun q => by
    unfold DotDims.rhsIdx
    rw [dif_neg (show ¬(1 : Fin S2048x768.rank) ∈ dot_S128x2048_S2048x768_S128x768_1_0_0_1_n_n.rhsBatch by decide),
      dif_pos (show (1 : Fin S2048x768.rank) ∈ dot_S128x2048_S2048x768_S128x768_1_0_0_1_n_n.rhsNonContracting by decide)]
    rfl
  have el : dot_S128x2048_S2048x768_S128x768_1_0_0_1_n_n.lhsIdx (ix2 r d)
      ((contrEquiv1 dot_S128x2048_S2048x768_S128x768_1_0_0_1_n_n 2048 rfl rfl).symm k) = ix2 r k := funext fun c => Fin.ext (by
    match c with
    | ⟨0, _⟩ => exact l0 _
    | ⟨1, _⟩ => exact (dot_S128x2048_S2048x768_S128x768_1_0_0_1_n_n.lhsIdx_val_of_single rfl _ _).trans hk)
  have er : dot_S128x2048_S2048x768_S128x768_1_0_0_1_n_n.rhsIdx (ix2 r d)
      ((contrEquiv1 dot_S128x2048_S2048x768_S128x768_1_0_0_1_n_n 2048 rfl rfl).symm k) = ix2 k d := funext fun c => Fin.ext (by
    match c with
    | ⟨0, _⟩ => exact (dot_S128x2048_S2048x768_S128x768_1_0_0_1_n_n.rhsIdx_val_of_single rfl _ _).trans hk
    | ⟨1, _⟩ => exact r1 _)
  rw [el, er]

/-! ## The lane reductions at coordinates -/

/-- The lane maximum from -∞ of a [128, 2048] matrix, at row `r`: the fold of `max` from -∞ over the row. -/
theorem laneMax_apply (x : FVec Ideal S128x2048 .f32) (r : Fin 128) :
    multiReduction .maximumf [1] S128 x 0xFF800000#32 reduces_S128x2048_S128 (.inl rfl) rfl (ix1 r)
      = (Finset.univ : Finset (Fin 2048)).fold max negInf (fun k => x (ix2 r k)) := by
  refine (Ideal.multiReduction_maximumf_single x _ reduces_S128x2048_S128 (.inl rfl) rfl (ix1 r)).trans ?_
  have hf : (x ∘ reduces_S128x2048_S128.lift (ix1 r)) = fun k : Fin 2048 => x (ix2 r k) :=
    funext fun k => congrArg x (funext fun a => Fin.ext (by match a with | ⟨0, _⟩ => rfl | ⟨1, _⟩ => rfl))
  exact congrArg (fun f => Finset.fold max negInf f (Finset.univ : Finset (Fin 2048))) hf

/-- The lane sum from zero of a [128, 2048] matrix, at row `r`: the sum over the row. -/
theorem laneSum_apply (x : FVec Ideal S128x2048 .f32) (r : Fin 128) :
    multiReduction .add [1] S128 x 0x00000000#32 reduces_S128x2048_S128 (.inl rfl) rfl (ix1 r)
      = ∑ k : Fin 2048, x (ix2 r k) := by
  refine (Ideal.multiReduction_add_single x _ reduces_S128x2048_S128 (.inl rfl) rfl (ix1 r)).trans ?_
  exact Finset.sum_congr rfl fun k _ =>
    congrArg x (funext fun a => Fin.ext (by match a with | ⟨0, _⟩ => rfl | ⟨1, _⟩ => rfl))

/-! ## The body's stages -/

section Stages

variable (x0 : Vec Ideal S1x128x768 .f32) (x1 x2 : Vec Ideal S1x2048x768 .f32)

/-- The block's 128 query rows as a matrix. -/
def queries : FVec Ideal S128x768 .bf16 :=
  truncf .bf16 (shapeCast S128x768 x0 shapeCasts_S1x128x768_S128x768) bitsLt_bf16_f32

/-- A staged [1, 2048, 768] block (the batch's keys, or its values) as a matrix. -/
def rows (x : Vec Ideal S1x2048x768 .f32) : FVec Ideal S2048x768 .bf16 :=
  truncf .bf16 (shapeCast S2048x768 x shapeCasts_S1x2048x768_S2048x768) bitsLt_bf16_f32

/-- The scaled scores of the block's rows against every key. -/
def scores : FVec Ideal S128x2048 .f32 :=
  mulf (matmul dot_S128x768_S2048x768_S128x2048_1_1_0_0_n_n none (queries x0) (rows x1) (constant S128x2048 .f32 0x00000000#32))
    (broadcast S128x2048 (Scalar.ofBits .f32 0x3D13CD3A#32))

/-- Each row's maximum score. -/
def rowMaxes : FVec Ideal S128 .f32 :=
  maximumf (broadcast S128 (Scalar.ofBits .f32 0xFF800000#32))
    (multiReduction .maximumf [1] S128 (scores x0 x1) 0xFF800000#32 reduces_S128x2048_S128 (.inl rfl) rfl)

/-- The unnormalised softmax weights. -/
def weights : FVec Ideal S128x2048 .f32 :=
  exp (subf (scores x0 x1)
    (broadcastTo S128x2048 (shapeCast S128x1 (rowMaxes x0 x1) shapeCasts_S128_S128x1) broadcasts_S128x1_S128x2048))

/-- Each row's softmax denominator. -/
def denoms : FVec Ideal S128 .f32 :=
  multiReduction .add [1] S128 (weights x0 x1) 0x00000000#32 reduces_S128x2048_S128 (.inl rfl) rfl

/-- The normalised weights. -/
def probs : FVec Ideal S128x2048 .bf16 :=
  truncf .bf16 (divf (weights x0 x1)
    (broadcastTo S128x2048 (shapeCast S128x1 (denoms x0 x1) shapeCasts_S128_S128x1) broadcasts_S128x1_S128x2048)) bitsLt_bf16_f32

/-- The block's output rows as a matrix. -/
def outputs : FVec Ideal S128x768 .f32 :=
  matmul dot_S128x2048_S2048x768_S128x768_1_0_0_1_n_n none (probs x0 x1) (rows x2) (constant S128x768 .f32 0x00000000#32)

/-- The value the body stores is the output matrix with the leading unit axis restored: the body's operations are
    these stages, in order. -/
theorem payload_eq : k0_pay1 (F := Ideal) x0 x1 x2 = shapeCast S1x128x768 (outputs x0 x1 x2) shapeCasts_S128x768_S1x128x768 := rfl

/-- Query row `r` of the block. -/
abbrev queryRow (r : Fin 128) : Fin 768 → EReal := fun d => x0 (ix3 0 r d)

/-- The rows of a staged [1, 2048, 768] block. -/
abbrev stagedRows (x : Vec Ideal S1x2048x768 .f32) : Fin 2048 → Fin 768 → EReal := fun k d => x (ix3 0 k d)

theorem queries_apply (r : Fin 128) (d : Fin 768) : queries x0 (ix2 r d) = x0 (ix3 0 r d) :=
  dropLead_apply x0 shapeCasts_S1x128x768_S128x768 r d

theorem rows_apply (x : Vec Ideal S1x2048x768 .f32) (k : Fin 2048) (d : Fin 768) : rows x (ix2 k d) = x (ix3 0 k d) :=
  dropLead_apply x shapeCasts_S1x2048x768_S2048x768 k d

theorem scores_apply (r : Fin 128) (k : Fin 2048) :
    scores x0 x1 (ix2 r k) = score (queryRow x0 r) (stagedRows x1) k := by
  unfold scores
  rw [mulf_apply, scoreProduct_apply]
  simp only [queries_apply, rows_apply]
  rfl

theorem rowMaxes_apply (r : Fin 128) : rowMaxes x0 x1 (ix1 r) = rowMax (queryRow x0 r) (stagedRows x1) := by
  unfold rowMaxes
  rw [maximumf_apply, laneMax_apply]
  simp only [scores_apply]
  rfl

theorem weights_apply (r : Fin 128) (k : Fin 2048) :
    weights x0 x1 (ix2 r k) = weight (queryRow x0 r) (stagedRows x1) k := by
  unfold weights
  rw [exp_apply, subf_apply, column_apply, scores_apply, rowMaxes_apply]
  rfl

theorem denoms_apply (r : Fin 128) : denoms x0 x1 (ix1 r) = denom (queryRow x0 r) (stagedRows x1) := by
  unfold denoms
  rw [laneSum_apply]
  simp only [weights_apply]
  rfl

theorem probs_apply (r : Fin 128) (k : Fin 2048) :
    probs x0 x1 (ix2 r k) = Ideal.div (weight (queryRow x0 r) (stagedRows x1) k) (denom (queryRow x0 r) (stagedRows x1)) := by
  unfold probs
  rw [truncf_apply, divf_apply, column_apply, weights_apply, denoms_apply]

theorem outputs_apply (r : Fin 128) (d : Fin 768) :
    outputs x0 x1 x2 (ix2 r d) = attnRow (queryRow x0 r) (stagedRows x1) (stagedRows x2) d := by
  unfold outputs
  rw [valueProduct_apply]
  simp only [probs_apply, rows_apply]
  rfl

/-- Entry (0, r, d) of the block the body stores: the attention output of the block's query row `r` against the
    staged keys and values, at feature `d`. -/
theorem payload_apply (r : Fin 128) (d : Fin 768) :
    k0_pay1 (F := Ideal) x0 x1 x2 (ix3 0 r d) = attnRow (queryRow x0 r) (stagedRows x1) (stagedRows x2) d := by
  rw [payload_eq]
  exact (addLead_apply (outputs x0 x1 x2) shapeCasts_S128x768_S1x128x768 r d).trans (outputs_apply x0 x1 x2 r d)

end Stages

end Cert.KernelIdeal.BlockValue

end
-- ==== Proof.KernelAttention.lean ====
/-
  The kernel's result array is `Attention.attn` of its three argument arrays.

  The grid is 16 batches by 16 query blocks. At point (b, j) the kernel stages rows 128·j … 128·j + 127 of batch
  `b` of the first argument (the queries) and ALL 2048 rows of batch `b` of the second and third (keys, values),
  and writes back rows 128·j … 128·j + 127 of batch `b` of the result. Each written row is `attnRow` of its query
  row against the batch's keys and values (the block lemma), which is that row of `attn`; the 256 written blocks
  tile the [16, 2048, 768] result (row `i` of batch `b` lies in block `i / 128`), so the whole array is `attn`.
-/
import proofs.«101523_j39676907884055_1_alg».proof.Proof.Gen.KernelIdeal.Value
import proofs.«101523_j39676907884055_1_alg».proof.Proof.BlockAttention

set_option maxRecDepth 16384

noncomputable section

namespace Cert.KernelIdeal.ArrayValue

open Cert.KernelIdeal Cert.KernelIdeal.Gen Cert.KernelIdeal.BlockValue Cert.Attention
open Idealize.ShloMosaic Idealize.ShloMosaic.TcCoe Idealize.ShloMosaic.ValueIdx Idealize.SL.Sem
open Idealize.ShloMosaic.Pipeline (Dat)

/-! ## A block of `attn`, over variables -/

/-- If a point's three loaded blocks are the arrays' blocks at batch `b` and query block `qb` — the query block rows
    128·qb + r of batch `b`, the key and value blocks all of batch `b` —, then the block the body stores is, entry
    by entry, `attn` of the arrays at (b, 128·qb + r, d). -/
theorem block_eq (A0 A1 A2 : (⟨3, ![16, 2048, 768]⟩ : Shape).Idx → EReal)
    (x0 : Vec Ideal S1x128x768 .f32) (x1 x2 : Vec Ideal S1x2048x768 .f32) (b : Fin 16) (qb : Fin 16)
    (h0 : ∀ (r : Fin 128) (d : Fin 768), x0 (ix3 0 r d) = A0 (ix3 b ⟨qb.val * 128 + r.val, by omega⟩ d))
    (h1 : ∀ (k : Fin 2048) (d : Fin 768), x1 (ix3 0 k d) = A1 (ix3 b k d))
    (h2 : ∀ (k : Fin 2048) (d : Fin 768), x2 (ix3 0 k d) = A2 (ix3 b k d)) :
    k0_pay1 (F := Ideal) x0 x1 x2
      = fun y : S1x128x768.Idx => attn A0 A1 A2
          (ix3 b ⟨qb.val * 128 + (y 1).val, by have h : (y 1).val < 128 := (y 1).isLt; omega⟩ (y 2)) := by
  funext y
  have hy0 : y 0 = (0 : Fin 1) := Fin.ext (by
    have h : (y 0).val < 1 := (y 0).isLt
    show (y 0).val = 0
    omega)
  obtain ⟨r, d, rfl⟩ : ∃ (r : Fin 128) (d : Fin 768), y = ix3 0 r d :=
    ⟨y 1, y 2, (eq_ix3 y).trans (congrArg (fun z => ix3 z (y 1) (y 2)) hy0)⟩
  rw [payload_apply]
  show attnRow (queryRow x0 r) (stagedRows x1) (stagedRows x2) d
    = attnRow (fun d' => A0 (ix3 b ⟨qb.val * 128 + r.val, by omega⟩ d')) (fun k d' => A1 (ix3 b k d')) (fun k d' => A2 (ix3 b k d')) d
  rw [show queryRow x0 r = fun d' => A0 (ix3 b ⟨qb.val * 128 + r.val, by omega⟩ d') from funext fun d' => h0 r d',
    show stagedRows x1 = fun k d' => A1 (ix3 b k d') from funext fun k => funext fun d' => h1 k d',
    show stagedRows x2 = fun k d' => A2 (ix3 b k d') from funext fun k => funext fun d' => h2 k d']

/-! ## The grid's index maps -/

variable (m : (ℓ : Loc nD τ sig) → Buf (Elt Ideal) ℓ) (ρ : Dev nD → PrngReg)

theorem zeroOffsets : (![0, 0, 0] : Fin 3 → Nat) = fun _ => 0 := funext fun a => by fin_cases a <;> rfl

/-- The printed index maps over the 256 grid points: the query window moves with the output window; the key and value
    windows follow its batch and stay at row block 0; no window moves along the features; the output's batch and row
    block stay below 16. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 16 ∧ win0_3.index t (1 : Fin 3) < 16 :=
  (by decide +kernel : ∀ t : Fin grid0.N, _)

/-- Every (batch, row block) is some point's output block. -/
theorem index_onto : ∀ (b : Fin 16) (qb : Fin 16), ∃ t : Fin cfg0.N, win0_3.index t = ![b.val, qb.val, 0] :=
  (by decide +kernel : ∀ (b : Fin 16) (qb : Fin 16), ∃ t : Fin grid0.N, win0_3.index t = ![b.val, qb.val, 0])

/-! ## What a point writes back -/

/-- Point `t` writes back block `t` of `attn` of the argument arrays. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Cert.KernelIdeal.Value.flushed3]
  unfold out0_3
  rw [View.canon_unit_zero zeroOffsets]
  simp only [View.ld_unit_zero (S := S1x128x768) zeroOffsets, View.ld_unit_zero (S := S1x2048x768) zeroOffsets]
  obtain ⟨e00, e01, e02, e10, e11, e12, e20, e21, e22, e32, lb, lq⟩ := index_facts t
  rw [block_eq (V m c main_arg0) (V m c main_arg1) (V m c main_arg2) (iblk m c 0 t) (iblk m c 1 t) (iblk m c 2 t)
    ⟨win0_3.index t (0 : Fin 3), lb⟩ ⟨win0_3.index t (1 : Fin 3), lq⟩ ?h0 ?h1 ?h2]
  case h0 =>
    intro r d
    show V m c main_arg0 (((cfg0.win 0).blk t).view.emb (ix3 0 r d)) = V m c main_arg0 _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 128 + 1 * r.val = win0_3.index t (1 : Fin 3) * 128 + r.val; omega
    | ⟨2, _⟩ => show win0_0.index t (2 : Fin 3) * 768 + 1 * d.val = d.val; omega
  case h1 =>
    intro k d
    show V m c main_arg1 (((cfg0.win 1).blk t).view.emb (ix3 0 k d)) = V m c main_arg1 _
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 768 + 1 * d.val = d.val; omega
  case h2 =>
    intro k d
    show V m c main_arg2 (((cfg0.win 2).blk t).view.emb (ix3 0 k d)) = V m c main_arg2 _
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * k.val = k.val; omega
    | ⟨2, _⟩ => show win0_2.index t (2 : Fin 3) * 768 + 1 * d.val = d.val; omega
  funext y
  show attn (V m c main_arg0) (V m c main_arg1) (V m c main_arg2) _
    = attn (V m c main_arg0) (V m c main_arg1) (V m c main_arg2) (((cfg0.win 3).blk t).view.emb y)
  refine congrArg (attn (V m c main_arg0) (V m c main_arg1) (V m c main_arg2)) (funext fun a => Fin.ext ?_)
  match a with
  | ⟨0, _⟩ =>
    show win0_3.index t (0 : Fin 3) = win0_3.index t (0 : Fin 3) * 1 + 1 * (y 0).val
    have : (y 0).val < 1 := (y 0).isLt
    omega
  | ⟨1, _⟩ => show win0_3.index t (1 : Fin 3) * 128 + (y 1).val = win0_3.index t (1 : Fin 3) * 128 + 1 * (y 1).val; omega
  | ⟨2, _⟩ => show (y 2).val = win0_3.index t (2 : Fin 3) * 768 + 1 * (y 2).val; omega

/-! ## The written blocks tile the result -/

/-- An index of the result is in point `t`'s block iff each coordinate is in the block's range on its axis. -/
theorem mem_blk (t : Fin cfg0.N) (i : S16x2048x768.Idx) :
    i ∈ ((cfg0.win 3).blk t).view.set
      ↔ ∀ a : Fin 3, win0_3.index t a * S1x128x768.size a ≤ (i a).val ∧ (i a).val < win0_3.index t a * S1x128x768.size a + S1x128x768.size a := by
  show i ∈ ((View.whole main_v0).slice (win0_3.rect t)).set ↔ _
  rw [View.set_slice_whole, Rect.mem_set_unit]
  exact Iff.rfl

/-- Every index of the result is in some point's block: (b, i, d) in the block of batch `b`, row block `i / 128`. -/
theorem cover (i : S16x2048x768.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 768 := (i 2).isLt
  obtain ⟨t, ht⟩ := index_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 768 ≤ (i 2).val ∧ (i 2).val < win0_3.index t (2 : Fin 3) * 768 + 768; omega

/-! ## The array after the run, and the run -/

/-- After the run the result array is `attn` of the three argument arrays as launched. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 (attn (V m c main_arg0) (V m c main_arg1) (V m c main_arg2))
    (fun t _ => flushed_eq m c t) cover

/-- Every weakly fair execution of the kernel terminates with the result array at `attn` of the arguments and the
    arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.ArrayValue

end
-- ==== Proof.lean ====
/-
  Scaled dot-product attention, tiled over (batch, query block), against the plain einsum / softmax / einsum.

  Both programs compute, for every batch b and query row r, the softmax over the 2048 keys of the scaled inner
  products of the query row with the key rows, and average the value rows by it. On the extended reals the
  kernel's changes of float format are the identity, its matrix products into zero accumulators are the plain
  sums the reference's contractions are, its lane maximum and lane sum are the reference's reductions over the key
  axis, and the scale and -∞ are the same float words on both sides. So each program's result is ONE function of
  the three argument arrays, `Attention.attn`:
  * the reference, read one operation at a time (ReferenceAttention.lean);
  * one grid point of the kernel, row by row (BlockAttention.lean), and the 256 written blocks, which tile the
    result (KernelAttention.lean).
  The three frames are the programs' runs with the result forgotten; the idealization rewrote nothing, so there is
  nothing to preserve; and the two runs, from memories agreeing on the arguments, end at the same `attn` term.
  The precondition (finite inputs) is not used: no step moves a factor across a sum or cancels.
-/
import proofs.«101523_j39676907884055_1_alg».proof.Defs
import proofs.«101523_j39676907884055_1_alg».proof.Proof.Gen.Kernel
import proofs.«101523_j39676907884055_1_alg».proof.Proof.Gen.Kernel.Skeleton
import proofs.«101523_j39676907884055_1_alg».proof.Proof.Gen.Kernel.Launch
import proofs.«101523_j39676907884055_1_alg».proof.Proof.Gen.Kernel.Points
import proofs.«101523_j39676907884055_1_alg».proof.Proof.Gen.Kernel.Frame
import proofs.«101523_j39676907884055_1_alg».proof.Proof.Gen.KernelIdeal
import proofs.«101523_j39676907884055_1_alg».proof.Proof.Gen.KernelIdeal.Skeleton
import proofs.«101523_j39676907884055_1_alg».proof.Proof.Gen.KernelIdeal.Launch
import proofs.«101523_j39676907884055_1_alg».proof.Proof.Gen.KernelIdeal.Points
import proofs.«101523_j39676907884055_1_alg».proof.Proof.Gen.KernelIdeal.Frame
import proofs.«101523_j39676907884055_1_alg».proof.Proof.Gen.ReferenceIdeal
import proofs.«101523_j39676907884055_1_alg».proof.Proof.Gen.Pre_finite_inputs
import proofs.«101523_j39676907884055_1_alg».proof.Proof.Gen.KernelIdeal.Value
import proofs.«101523_j39676907884055_1_alg».proof.Proof.Gen.ReferenceIdeal.Run
import proofs.«101523_j39676907884055_1_alg».proof.Proof.Gen.ReferenceIdeal.Read
import proofs.«101523_j39676907884055_1_alg».proof.Proof.Attention
import proofs.«101523_j39676907884055_1_alg».proof.Proof.ReferenceAttention
import proofs.«101523_j39676907884055_1_alg».proof.Proof.BlockAttention
import proofs.«101523_j39676907884055_1_alg».proof.Proof.KernelAttention
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the kernel's result array ends at `attn` of its arguments and the
    reference's at `attn` of its own, which are the same three arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
